-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S512 : Shape := ⟨1, ![512]⟩
abbrev S2048x512 : Shape := ⟨2, ![2048, 512]⟩
abbrev S512x2048 : Shape := ⟨2, ![512, 2048]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  main_v18

def fn {F : FTy → Type} [FloatOps F] (main_arg0 : FVec F S8x4096x512 .f32) (main_arg1 : FVec F S512 .f32) (main_arg2 : FVec F S2048x512 .f32) (main_arg3 : FVec F S512x2048 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_v13 main_v16
-- ==== Kernel.lean ====
abbrev S8x4096x512 : Shape := ⟨3, ![8, 4096, 512]⟩
abbrev S512 : Shape := ⟨1, ![512]⟩
abbrev S2048x512 : Shape := ⟨2, ![2048, 512]⟩
abbrev S512x2048 : Shape := ⟨2, ![512, 2048]⟩
abbrev S32768x512 : Shape := ⟨2, ![32768, 512]⟩
abbrev S1024x512 : Shape := ⟨2, ![1024, 512]⟩
abbrev S1x512 : Shape := ⟨2, ![1, 512]⟩
abbrev S1 : Shape := ⟨1, ![1]⟩
abbrev S1x1 : Shape := ⟨2, ![1, 1]⟩
abbrev S1024x2048 : Shape := ⟨2, ![1024, 2048]⟩

abbrev nBuf : Space → Nat
  | .hbm => 9
  | .vmem => 7
  | .smem => 0
  | _ => 0

abbrev bufTy : (tb : Table) → Fin (tcTables nBuf tb) → BufTy
  | .hbm, ⟨0, _⟩ => ⟨S8x4096x512, .f32⟩
  | .hbm, ⟨1, _⟩ => ⟨S512, .f32⟩
  | .hbm, ⟨2, _⟩ => ⟨S2048x512, .f32⟩
  | .hbm, ⟨3, _⟩ => ⟨S512x2048, .f32⟩
  | .hbm, ⟨4, _⟩ => ⟨S32768x512, .f32⟩
  | .hbm, ⟨5, _⟩ => ⟨S2048x512, .bf16⟩
  | .hbm, ⟨6, _⟩ => ⟨S512x2048, .bf16⟩
  | .hbm, ⟨7, _⟩ => ⟨S32768x512, .f32⟩
  | .hbm, ⟨8, _⟩ => ⟨S8x4096x512, .f32⟩
  | .local _ .vmem, ⟨0, _⟩ => ⟨S1024x512, .f32⟩
  | .local _ .vmem, ⟨1, _⟩ => ⟨S1024x512, .f32⟩
  | .local _ .vmem, ⟨2, _⟩ => ⟨S512, .f32⟩
  | .local _ .vmem, ⟨3, _⟩ => ⟨S2048x512, .bf16⟩
  | .local _ .vmem, ⟨4, _⟩ => ⟨S512x2048, .bf16⟩
  | .local _ .vmem, ⟨5, _⟩ => ⟨S1024x512, .f32⟩
  | .local _ .vmem, ⟨6, _⟩ => ⟨S1024x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x4096x512_S32768x512 : S8x4096x512.ShapeCasts S32768x512
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S32768x512_S8x4096x512 : S32768x512.ShapeCasts S8x4096x512
  dot_S1024x512_S2048x512_S1024x2048_1_1_0_0_n_n_wf : DotDims.WF S1024x512 S2048x512 S1024x2048 [1] [1] [0] [0] [] []
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S32768x512.size a
  hwx0_4 : ∀ i : grid0.Coords, EltTy.bits .f32 = 32 ∨ (Rect.block (s := S32768x512) S1024x512.size (cc0_transform_4 i) (hinb0_4 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf
def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S512 : Shape := ⟨1, ![512]⟩
abbrev S2048x512 : Shape := ⟨2, ![2048, 512]⟩
abbrev S512x2048 : Shape := ⟨2, ![512, 2048]⟩
abbrev S_ : Shape := ⟨0, ![]⟩
abbrev S8x4096x2048 : Shape := ⟨3, ![8, 4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S512, .f32⟩
  | .hbm, ⟨2, _⟩ => ⟨S2048x512, .f32⟩
  | .hbm, ⟨3, _⟩ => ⟨S512x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x4096x512, .f32⟩
  | .hbm, ⟨8, _⟩ => ⟨S8x4096x512, .f32⟩
  | .hbm, ⟨9, _⟩ => ⟨S8x4096x512, .f32⟩
  | .hbm, ⟨10, _⟩ => ⟨S8x4096x2048, .f32⟩
  | .hbm, ⟨11, _⟩ => ⟨S_, .f32⟩
  | .hbm, ⟨12, _⟩ => ⟨S8x4096x2048, .f32⟩
  | .hbm, ⟨13, _⟩ => ⟨S8x4096x2048, .f32⟩
  | .hbm, ⟨14, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  reducesTo_S512_S_d0 : S512.ReducesTo [0] S_
  h_S_ : 0 < S_.numel
  bcast_S_S8x4096x512 : S_.BroadcastsInDim S8x4096x512 (![] : Fin 0 → Fin S8x4096x512.rank)
  bcast_S_S8x4096x2048 : S_.BroadcastsInDim S8x4096x2048 (![] : Fin 0 → Fin S8x4096x2048.rank)
  dot_S8x4096x512_S2048x512_S8x4096x2048_2_1_01_0_n_n_wf : DotDims.WF S8x4096x512 S2048x512 S8x4096x2048 [2] [1] [0, 1] [0] [] []
  dot_S8x4096x2048_S512x2048_S8x4096x512_2_1_01_0_n_n_wf : DotDims.WF S8x4096x2048 S512x2048 S8x4096x512 [2] [1] [0, 1] [0] [] []

variable [Facts₀]

def dot_S8x4096x512_S2048x512_S8x4096x2048_2_1_01_0_n_n : DotDims S8x4096x512 S2048x512 S8x4096x2048 where
  lhsContracting := [2]
  rhsContracting := [1]
  lhsNonContracting := [0, 1]
  rhsNonContracting := [0]
  lhsBatch := []
  rhsBatch := []
  wf := dot_S8x4096x512_S2048x512_S8x4096x2048_2_1_01_0_n_n_wf
def dot_S8x4096x2048_S512x2048_S8x4096x512_2_1_01_0_n_n : DotDims S8x4096x2048 S512x2048 S8x4096x512 where
  lhsContracting := [2]
  rhsContracting := [1]
  lhsNonContracting := [0, 1]
  rhsNonContracting := [0]
  lhsBatch := []
  rhsBatch := []
  wf := dot_S8x4096x2048_S512x2048_S8x4096x512_2_1_01_0_n_n_wf

class Facts : Prop extends Facts₀ where

variable [Facts]
-- ==== Proof.Token.lean ====
/-
  The function both programs compute, one token at a time.

  A token is a vector of 512 reals. With `s` the cosine of the sum of all 512 angles, the token's encoding is
  `s · cos (token k)`, feature by feature; hidden unit `f` is the positive part of the encoding's inner product with
  row `f` of the first weight matrix (2048 rows of 512); output feature `c` is the inner product of the 2048 hidden
  units with row `c` of the second weight matrix (512 rows of 2048). Everything is over the extended reals, the sums in
  the order of the index, with nothing rounded.

  The tokens come arranged in two ways: as the 32768 rows of one matrix, and as 8 sequences of 4096 tokens. Row
  `4096 · b + t` of the matrix is token `t` of sequence `b`, which is what the row-major re-indexing between the two
  shapes says; `onTokens_eq` is that statement for the whole result.
-/
import Idealize.ShloMosaic.PureOps.Ideal
import Idealize.ShloMosaic.PureOps.Ideal.Laws
import Idealize.ShloMosaic.Lib.ValueIdx
import Idealize.ShloMosaic.Lib.Pipeline.Value

noncomputable section

namespace Cert.FeedForward

open Idealize.ShloMosaic Idealize.ShloMosaic.ValueIdx

/-- The 512 angles, the two weight matrices, the tokens as rows, the tokens as sequences. -/
abbrev Angles : Shape := ⟨1, ![512]⟩
abbrev First : Shape := ⟨2, ![2048, 512]⟩
abbrev Second : Shape := ⟨2, ![512, 2048]⟩
abbrev Rows : Shape := ⟨2, ![32768, 512]⟩
abbrev Seqs : Shape := ⟨3, ![8, 4096, 512]⟩

/-- The cosine of the sum of all the angles. -/
def scale (θ : Angles.Idx → EReal) : EReal := Ideal.cos (∑ j, θ j)

/-- Hidden unit `f` of a token: the positive part of the encoded token's inner product with row `f`. -/
def hidden (s : EReal) (tok : Fin 512 → EReal) (W1 : First.Idx → EReal) (f : Fin 2048) : EReal :=
  max (∑ k : Fin 512, (s * Ideal.cos (tok k)) * W1 (ix2 f k)) 0

/-- Output feature `c` of a token: the hidden units' inner product with row `c`. -/
def feature (s : EReal) (tok : Fin 512 → EReal) (W1 : First.Idx → EReal) (W2 : Second.Idx → EReal) (c : Fin 512) : EReal :=
  ∑ f : Fin 2048, hidden s tok W1 f * W2 (ix2 c f)

/-- The result over tokens arranged as the rows of a matrix. -/
def onRows (X : Rows.Idx → EReal) (θ : Angles.Idx → EReal) (W1 : First.Idx → EReal) (W2 : Second.Idx → EReal) :
    Rows.Idx → EReal :=
  fun j => feature (scale θ) (fun k => X (ix2 (j 0 : Fin 32768) k)) W1 W2 (j 1 : Fin 512)

/-- The result over tokens arranged as sequences. -/
def onTokens (x : Seqs.Idx → EReal) (θ : Angles.Idx → EReal) (W1 : First.Idx → EReal) (W2 : Second.Idx → EReal) :
    Seqs.Idx → EReal :=
  fun i => feature (scale θ) (fun k => x (ix3 (i 0 : Fin 8) (i 1 : Fin 4096) k)) W1 W2 (i 2 : Fin 512)

/-- The two arrangements read at an index given by its coordinates. -/
theorem onRows_apply (X : Rows.Idx → EReal) (θ : Angles.Idx → EReal) (W1 : First.Idx → EReal) (W2 : Second.Idx → EReal)
    (r : Fin 32768) (c : Fin 512) :
    onRows X θ W1 W2 (ix2 r c) = feature (scale θ) (fun k => X (ix2 r k)) W1 W2 c := rfl
theorem onTokens_apply (x : Seqs.Idx → EReal) (θ : Angles.Idx → EReal) (W1 : First.Idx → EReal) (W2 : Second.Idx → EReal)
    (b : Fin 8) (t : Fin 4096) (c : Fin 512) :
    onTokens x θ W1 W2 (ix3 b t c) = feature (scale θ) (fun k => x (ix3 b t k)) W1 W2 c := rfl

/-- Row `4096 · b + t`, column `k` of the matrix is feature `k` of token `t` of sequence `b`. -/
theorem rows_apply (x : Seqs.Idx → EReal) (h : Seqs.ShapeCasts Rows) (b : Fin 8) (t : Fin 4096) (k : Fin 512)
    (r : Fin 32768) (hr : r.val = b.val * 4096 + t.val) :
    shapeCast Rows x h (ix2 r k) = x (ix3 b t k) := by
  refine shapeCast_apply x h _ _ ?_
  rw [Shape.rowMajor_val_three, Shape.rowMajor_val_two]
  show (b.val * 4096 + t.val) * 512 + k.val = r.val * 512 + k.val
  rw [hr]

/-- Computing row by row on the matrix of tokens and reading the result back as sequences is computing token by token. -/
theorem onTokens_eq (x : Seqs.Idx → EReal) (θ : Angles.Idx → EReal) (W1 : First.Idx → EReal) (W2 : Second.Idx → EReal)
    (h : Seqs.ShapeCasts Rows) (h' : Rows.ShapeCasts Seqs) :
    shapeCast Seqs (onRows (shapeCast Rows x h) θ W1 W2) h' = onTokens x θ W1 W2 := by
  funext i
  obtain ⟨b, t, c, rfl⟩ : ∃ (b : Fin 8) (t : Fin 4096) (c : Fin 512), i = ix3 b t c := ⟨i 0, i 1, i 2, eq_ix3 i⟩
  have hlt : b.val * 4096 + t.val < 32768 := by
    have h0 : b.val < 8 := b.isLt
    have h1 : t.val < 4096 := t.isLt
    omega
  rw [shapeCast_apply (onRows (shapeCast Rows x h) θ W1 W2) h' (ix3 b t c) (ix2 ⟨b.val * 4096 + t.val, hlt⟩ c) (by
    rw [Shape.rowMajor_val_three, Shape.rowMajor_val_two]; rfl), onRows_apply, onTokens_apply]
  congr 1
  funext k
  exact rows_apply x h b t k _ rfl

end Cert.FeedForward

end
-- ==== Proof.KernelToken.lean ====
/-
  What the kernel's body stores, read at one entry of its block.

  The body holds a block of 1024 tokens (rows), all 512 angles and both weight matrices. Entry (r, c) of what it stores is
  output feature c of the block's token r: the first matrix product contracts the encoded token with row f of the first
  weight matrix (both operands contracted along their last axis), the maximum with zero rectifies it, the second product
  contracts the 2048 hidden units with row c of the second weight matrix. Both products start from a zero accumulator, so
  each is the plain sum; the changes of float format are the identity on the extended reals; the scalar in front of
  cos x is the cosine of the sum of all angles, the lane sum taken over the angles laid out as one row.
-/
import proofs.«159117_j65481071405665_1_alg».proof.Proof.Gen.KernelIdeal.Skeleton
import proofs.«159117_j65481071405665_1_alg».proof.Proof.Token
import Idealize.ShloMosaic.PureOps.Ideal.Laws
import Idealize.ShloMosaic.Lib.ValueIdx
import Idealize.ShloMosaic.Lib.Pipeline.Value

noncomputable section

namespace Cert.FeedForward.OfKernel

open Cert.KernelIdeal Cert.KernelIdeal.Gen Cert.FeedForward
open Idealize.ShloMosaic Idealize.ShloMosaic.ValueIdx

/-- In both products the left operand is read at the output's row and the right operand at the row the output's column names;
    the second coordinate of each is the contracted one. -/
theorem first_lhs_row (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem first_rhs_row (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem second_lhs_row (i : S1024x512.Idx) (q : dot_S1024x2048_S512x2048_S1024x512_1_1_0_0_n_n.contr.Idx) :
    (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
theorem second_rhs_row (i : S1024x512.Idx) (q : dot_S1024x2048_S512x2048_S1024x512_1_1_0_0_n_n.contr.Idx) :
    (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl

/-- The first product at (r, f): token r against row f of the first weight matrix. -/
theorem first_product_apply (l : FVec Ideal S1024x512 .bf16) (w : FVec Ideal S2048x512 .bf16) (r : Fin 1024) (f : Fin 2048) :
    matmul dot_S1024x512_S2048x512_S1024x2048_1_1_0_0_n_n none l w (constant S1024x2048 .f32 0x00000000#32) (ix2 r f)
      = ∑ k : Fin 512, l (ix2 r k) * w (ix2 f k) := by
  refine (Ideal.matmul_constant_zero_apply dot_S1024x512_S2048x512_S1024x2048_1_1_0_0_n_n none l w (ix2 r f)).trans ?_
  rw [← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 r f) ((contrEquiv1 dot_S1024x512_S2048x512_S1024x2048_1_1_0_0_n_n 512 rfl rfl).symm k) = ix2 r k :=
    funext fun a => Fin.ext (by
      match a with
      | ⟨0, _⟩ => exact first_lhs_row _ _
      | ⟨1, _⟩ => exact (dot_S1024x512_S2048x512_S1024x2048_1_1_0_0_n_n.lhsIdx_val_of_single rfl _ _).trans hk)
  have er : dot_S1024x512_S2048x512_S1024x2048_1_1_0_0_n_n.rhsIdx (ix2 r f) ((contrEquiv1 dot_S1024x512_S2048x512_S1024x2048_1_1_0_0_n_n 512 rfl rfl).symm k) = ix2 f k :=
    funext fun a => Fin.ext (by
      match a with
      | ⟨0, _⟩ => exact first_rhs_row _ _
      | ⟨1, _⟩ => exact (dot_S1024x512_S2048x512_S1024x2048_1_1_0_0_n_n.rhsIdx_val_of_single rfl _ _).trans hk)
  rw [el, er]

/-- The second product at (r, c): the hidden units of token r against row c of the second weight matrix. -/
theorem second_product_apply (l : FVec Ideal S1024x2048 .bf16) (w : FVec Ideal S512x2048 .bf16) (r : Fin 1024) (c : Fin 512) :
    matmul dot_S1024x2048_S512x2048_S1024x512_1_1_0_0_n_n none l w (constant S1024x512 .f32 0x00000000#32) (ix2 r c)
      = ∑ k : Fin 2048, l (ix2 r k) * w (ix2 c k) := by
  refine (Ideal.matmul_constant_zero_apply dot_S1024x2048_S512x2048_S1024x512_1_1_0_0_n_n none l w (ix2 r c)).trans ?_
  rw [← Equiv.sum_comp (contrEquiv1 dot_S1024x2048_S512x2048_S1024x512_1_1_0_0_n_n 2048 rfl rfl).symm]
  refine Finset.sum_congr rfl fun k _ => ?_
  have hk := contrEquiv1_symm_val dot_S1024x2048_S512x2048_S1024x512_1_1_0_0_n_n 2048 rfl rfl k
  have el : dot_S1024x2048_S512x2048_S1024x512_1_1_0_0_n_n.lhsIdx (ix2 r c) ((contrEquiv1 dot_S1024x2048_S512x2048_S1024x512_1_1_0_0_n_n 2048 rfl rfl).symm k) = ix2 r k :=
    funext fun a => Fin.ext (by
      match a with
      | ⟨0, _⟩ => exact second_lhs_row _ _
      | ⟨1, _⟩ => exact (dot_S1024x2048_S512x2048_S1024x512_1_1_0_0_n_n.lhsIdx_val_of_single rfl _ _).trans hk)
  have er : dot_S1024x2048_S512x2048_S1024x512_1_1_0_0_n_n.rhsIdx (ix2 r c) ((contrEquiv1 dot_S1024x2048_S512x2048_S1024x512_1_1_0_0_n_n 2048 rfl rfl).symm k) = ix2 c k :=
    funext fun a => Fin.ext (by
      match a with
      | ⟨0, _⟩ => exact second_rhs_row _ _
      | ⟨1, _⟩ => exact (dot_S1024x2048_S512x2048_S1024x512_1_1_0_0_n_n.rhsIdx_val_of_single rfl _ _).trans hk)
  rw [el, er]

/-- The scalar in front: the angles, laid out as one row of 512 lanes, summed along the lanes, and the cosine taken. -/
theorem scalar_eq (v0 : FVec Ideal S512 .f32) :
    Scalar.cos (extractAt ![0, 0] (shapeCast S1x1 (multiReduction .add [1] S1 (shapeCast S1x512 v0 shapeCasts_S512_S1x512)
      0x00000000#32 reduces_S1x512_S1 (.inl rfl) rfl) shapeCasts_S1_S1x1) inpos_S1x1_p0_0) = scale v0 := by
  unfold scale extractAt shapeCast
  show Ideal.cos _ = Ideal.cos _
  refine congrArg Ideal.cos ?_
  refine (Ideal.multiReduction_add_total (fun j => v0 (Shape.reshapeEquiv shapeCasts_S512_S1x512 j)) 0x00000000#32 reduces_S1x512_S1
    (fun b => by match b with | ⟨0, _⟩ => rfl) (.inl rfl) rfl _).trans ?_
  exact Equiv.sum_comp (Shape.reshapeEquiv shapeCasts_S512_S1x512) v0

/-- Entry (r, c) of the stored value is output feature c of the block's token r. -/
theorem payload_apply (v0 : FVec Ideal S512 .f32) (v6 : FVec Ideal S1024x512 .f32) (v12 : FVec Ideal S2048x512 .bf16)
    (v18 : FVec Ideal S512x2048 .bf16) (r : Fin 1024) (c : Fin 512) :
    k0_pay1 (F := Ideal) v0 v6 v12 v18 (ix2 r c) = feature (scale v0) (fun k => v6 (ix2 r k)) v12 v18 c := by
  unfold k0_pay1
  simp only [shapeCast_self]
  refine (second_product_apply _ _ r c).trans ?_
  unfold feature
  refine Finset.sum_congr rfl fun f _ => ?_
  refine congrArg (· * v18 (ix2 c f)) ?_
  show max (matmul dot_S1024x512_S2048x512_S1024x2048_1_1_0_0_n_n none _ v12 (constant S1024x2048 .f32 0x00000000#32) (ix2 r f))
      (Ideal.ofBits .f32 0x00000000#32) = _
  refine (congrArg (max _) Ideal.ofBits_zero_f32).trans ?_
  unfold hidden
  refine congrArg (max · 0) ?_
  refine (first_product_apply _ _ r f).trans ?_
  refine Finset.sum_congr rfl fun k _ => ?_
  refine congrArg (· * v12 (ix2 f k)) ?_
  exact congrArg (· * Ideal.cos (v6 (ix2 r k))) (scalar_eq v0)

end Cert.FeedForward.OfKernel

end
-- ==== Proof.KernelRows.lean ====
/-
  The array the kernel's launch leaves: the feed-forward of every row.

  The grid has 32 points. Point t is handed rows 1024·t … 1024·t + 1023 of the matrix of tokens, and the whole of the
  angles and of both weight matrices; it writes back rows 1024·t … 1024·t + 1023 of the result. Entry (r, c) of what it
  writes is output feature c of its token r, that is, of row 1024·t + r of the matrix: so every point writes a block of
  ONE function of the whole arrays, `onRows`. Row i of the result lies in the block of point i / 1024, so the blocks
  cover the result, and the array after the launch is that function.
-/
import proofs.«159117_j65481071405665_1_alg».proof.Proof.Gen.KernelIdeal.Frame
import proofs.«159117_j65481071405665_1_alg».proof.Proof.KernelToken
import Idealize.ShloMosaic.Lib.Pipeline.Value

noncomputable section

open Idealize.ShloMosaic Idealize.ShloMosaic.TcCoe Idealize.SL.Sem
open Idealize.ShloMosaic.Pipeline (Dat)

namespace Cert.FeedForward.OfKernel

open Cert.KernelIdeal Cert.KernelIdeal.Gen Cert.FeedForward
open Idealize.ShloMosaic.ValueIdx

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a; rfl

/-- Where each window's block sits at point t: the tokens' and the result's at block row t, the others at the origin. -/
theorem block_positions : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The result as the launch finds its operands: `onRows` of the matrix of tokens, the angles and the two weight matrices. -/
abbrev rowsResult (c : Dev nD) : S32768x512.Idx → EReal :=
  onRows (V m c main_v0) (V m c main_arg1) (V m c main_v1) (V m c main_v2)

/-- Entry (r, k) of point t's block of tokens is entry (1024·t + r, k) of the matrix. -/
theorem tokens_block (c : Dev nD) (t : Fin cfg0.N) (r : Fin 1024) (k : Fin 512) (R : Fin 32768)
    (hR : R.val = t.val * 1024 + r.val) :
    (iblk m c 0 t : S1024x512.Idx → EReal) (ix2 r k) = (V m c main_v0 : S32768x512.Idx → EReal) (ix2 R k) := by
  obtain ⟨-, -, e0, e1, -⟩ := block_positions t
  show V m c main_v0 (((cfg0.win 0).blk t).view.emb (ix2 r k)) = V m c main_v0 (ix2 R k)
  refine congrArg (V m c main_v0) (funext fun a => Fin.ext ?_)
  match a with
  | ⟨0, _⟩ => show win0_0.index t (0 : Fin 2) * 1024 + 1 * r.val = R.val; omega
  | ⟨1, _⟩ => show win0_0.index t (1 : Fin 2) * 512 + 1 * k.val = k.val; omega

/-- The other three blocks are the whole arrays. -/
theorem angles_block (c : Dev nD) (t : Fin cfg0.N) :
    (iblk m c 1 t : S512.Idx → EReal) = (V m c main_arg1 : S512.Idx → EReal) := by
  obtain ⟨-, -, -, -, e, -⟩ := block_positions t
  funext y
  show V m c main_arg1 (((cfg0.win 1).blk t).view.emb y) = V m c main_arg1 y
  refine congrArg (V m c main_arg1) (funext fun a => Fin.ext ?_)
  match a with
  | ⟨0, _⟩ => show win0_1.index t (0 : Fin 1) * 512 + 1 * (y 0).val = (y 0).val; omega

theorem first_block (c : Dev nD) (t : Fin cfg0.N) :
    (iblk m c 2 t : S2048x512.Idx → EReal) = (V m c main_v1 : S2048x512.Idx → EReal) := by
  obtain ⟨-, -, -, -, -, e0, e1, -⟩ := block_positions t
  funext y
  show V m c main_v1 (((cfg0.win 2).blk t).view.emb y) = V m c main_v1 y
  refine congrArg (V m c main_v1) (funext fun a => Fin.ext ?_)
  match a with
  | ⟨0, _⟩ => show win0_2.index t (0 : Fin 2) * 2048 + 1 * (y 0).val = (y 0).val; omega
  | ⟨1, _⟩ => show win0_2.index t (1 : Fin 2) * 512 + 1 * (y 1).val = (y 1).val; omega

theorem second_block (c : Dev nD) (t : Fin cfg0.N) :
    (iblk m c 3 t : S512x2048.Idx → EReal) = (V m c main_v2 : S512x2048.Idx → EReal) := by
  obtain ⟨-, -, -, -, -, -, -, e0, e1⟩ := block_positions t
  funext y
  show V m c main_v2 (((cfg0.win 3).blk t).view.emb y) = V m c main_v2 y
  refine congrArg (V m c main_v2) (funext fun a => Fin.ext ?_)
  match a with
  | ⟨0, _⟩ => show win0_3.index t (0 : Fin 2) * 512 + 1 * (y 0).val = (y 0).val; omega
  | ⟨1, _⟩ => show win0_3.index t (1 : Fin 2) * 2048 + 1 * (y 1).val = (y 1).val; omega

/-- What point t writes back is its block of `rowsResult`. -/
theorem flushed_eq (c : Dev nD) (t : Fin cfg0.N) :
    (dats m 0 c).flushed 4 t = ((cfg0.win 4).blk t).view.read (Elt Ideal) (rowsResult m c) := by
  show (cfg0.win 4).cut (grid0.coords t) ((dats m 0 c).after 4 t) = _
  rw [after0_4]
  unfold out0_4
  rw [View.canon_unit_zero zeros2]
  simp only [View.ld_unit_zero (S := S1024x512) zeros2, View.ld_unit_zero (S := S512) zeros1,
    View.ld_unit_zero (S := S2048x512) zeros2, View.ld_unit_zero (S := S512x2048) zeros2]
  obtain ⟨e0, e1, -⟩ := block_positions t
  funext j
  obtain ⟨r, col, rfl⟩ : ∃ (r : Fin 1024) (col : Fin 512), j = ix2 r col := ⟨j 0, j 1, eq_ix2 j⟩
  have hN : cfg0.N = 32 := N_0
  have hlt : t.val * 1024 + r.val < 32768 := by
    have h0 : t.val < 32 := hN ▸ t.isLt
    have h1 : r.val < 1024 := r.isLt
    omega
  have hemb : ((cfg0.win 4).blk t).view.emb (ix2 r col) = (ix2 ⟨t.val * 1024 + r.val, hlt⟩ col : S32768x512.Idx) :=
    funext fun a => Fin.ext (by
      match a with
      | ⟨0, _⟩ => show win0_4.index t (0 : Fin 2) * 1024 + 1 * r.val = t.val * 1024 + r.val; omega
      | ⟨1, _⟩ => show win0_4.index t (1 : Fin 2) * 512 + 1 * col.val = col.val; omega)
  show k0_pay1 (iblk m c 1 t) (iblk m c 0 t) (iblk m c 2 t) (iblk m c 3 t) (ix2 r col)
    = rowsResult m c (((cfg0.win 4).blk t).view.emb (ix2 r col))
  rw [hemb]
  refine (payload_apply (iblk m c 1 t) (iblk m c 0 t) (iblk m c 2 t) (iblk m c 3 t) r col).trans ?_
  rw [angles_block, first_block, second_block]
  show _ = feature (scale (V m c main_arg1)) (fun k => V m c main_v0 (ix2 ⟨t.val * 1024 + r.val, hlt⟩ k)) (V m c main_v1) (V m c main_v2) col
  refine congrArg (fun tok => feature (scale (V m c main_arg1)) tok (V m c main_v1) (V m c main_v2) col) ?_
  funext k
  exact tokens_block m c t r k _ rfl

/-- An index of the result lies in point t's block iff each coordinate lies in the block's range. -/
theorem mem_block (t : Fin cfg0.N) (i : S32768x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v3).slice (win0_4.rect t)).set ↔ _
  rw [View.set_slice_whole, Rect.mem_set_unit]
  exact Iff.rfl

/-- Row i of the result lies in the block of point i / 1024. -/
theorem covered (i : S32768x512.Idx) :
    ∃ t : Fin cfg0.N, (cfg0.win 4).flush t = true ∧ i ∈ ((cfg0.win 4).blk t).view.set := by
  have hi0 : (i 0).val < 32768 := (i 0).isLt
  have hi1 : (i 1).val < 512 := (i 1).isLt
  have hN : cfg0.N = 32 := N_0
  have ht : (i 0).val / 1024 < cfg0.N := by rw [hN]; omega
  obtain ⟨e0, e1, -⟩ := block_positions ⟨(i 0).val / 1024, ht⟩
  have e0' : win0_4.index ⟨(i 0).val / 1024, ht⟩ (0 : Fin 2) = (i 0).val / 1024 := e0
  refine ⟨⟨(i 0).val / 1024, ht⟩, flush0_4 _, ?_⟩
  rw [mem_block]
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    omega
  | ⟨1, _⟩ =>
    show win0_4.index ⟨(i 0).val / 1024, ht⟩ (1 : Fin 2) * 512 ≤ (i 1).val ∧ (i 1).val < win0_4.index ⟨(i 0).val / 1024, ht⟩ (1 : Fin 2) * 512 + 512
    omega

/-- The result array after the launch. -/
theorem rows_final (c : Dev nD) : (dats m 0 c).arrAt 4 cfg0.N = rowsResult m c :=
  (dats m 0 c).arrAt_eq_of_cover 4 (rowsResult m c) (fun t _ => flushed_eq m c t) covered

end Cert.FeedForward.OfKernel

end
-- ==== Proof.KernelRun.lean ====
/-
  The whole kernel program: the host lines around the launch, and its run.

  Before the launch the host lays the 8 × 4096 tokens out as the 32768 rows of one matrix (row-major, so row
  4096·b + t is token t of sequence b) and changes the float format of the two weight matrices, which on the extended
  reals changes nothing. After the launch it reads the 32768 × 512 result back as 8 × 4096 × 512, row-major again. The
  launch leaves `onRows` of what it was given (`rows_final`); read back through the two re-indexings that is
  `onTokens` of the program's own arguments (`onTokens_eq`). The arguments themselves end unchanged.
-/
import proofs.«159117_j65481071405665_1_alg».proof.Proof.KernelRows
import Idealize.ShloMosaic.Lib.StableHlo.Run

noncomputable section
open Idealize.ShloMosaic Idealize.ShloMosaic.TcCoe Idealize.SL.Sem Idealize.ShloMosaic.StableHlo
open Idealize.ShloMosaic.Pipeline (Dat)
namespace Cert.FeedForward.OfKernel
open Cert.KernelIdeal Cert.KernelIdeal.Gen Cert.FeedForward
open Idealize.ShloMosaic.ValueIdx
variable (m : (ℓ : Loc nD τ sig) → Buf (Elt Ideal) ℓ)

/-- The matrix of tokens the launch finds: the input re-indexed row-major. -/
theorem tokens_entry (c : Dev nD) :
    (V m c main_v0 : S32768x512.Idx → EReal)
      = shapeCast S32768x512 (m ((c : Thread nD τ).loc main_arg0)) shapeCasts_S8x4096x512_S32768x512 := by
  show StableHlo.after hostOps0 (fun b => m (c, b)) (Proc.devRef .tc main_v0) = _
  after_results; rfl

/-- The weight matrices the launch finds are the inputs: the change of format is the identity. -/
theorem first_entry (c : Dev nD) :
    (V m c main_v1 : S2048x512.Idx → EReal) = (m ((c : Thread nD τ).loc main_arg2) : S2048x512.Idx → EReal) := by
  show StableHlo.after hostOps0 (fun b => m (c, b)) (Proc.devRef .tc main_v1) = _
  after_results; rfl

theorem second_entry (c : Dev nD) :
    (V m c main_v2 : S512x2048.Idx → EReal) = (m ((c : Thread nD τ).loc main_arg3) : S512x2048.Idx → EReal) := by
  show StableHlo.after hostOps0 (fun b => m (c, b)) (Proc.devRef .tc main_v2) = _
  after_results; rfl

/-- The program's result is the launch's result array re-indexed row-major. -/
theorem result_tail (c : Dev nD) :
    (Pipeline.afterTail₀ cfgs (dats m) 0 (V0 m) [hostOps1] c main_v4 : S8x4096x512.Idx → EReal)
      = shapeCast S8x4096x512 ((dats m 0 c).arrAt 4 cfg0.N) shapeCasts_S32768x512_S8x4096x512 := by
  unfold Pipeline.afterTail₀
  show StableHlo.after hostOps1 _ (Proc.devRef .tc main_v4) = _
  after_results
  refine funext fun i => ?_
  exact congrArg (fun X : S32768x512.Idx → EReal => shapeCast S8x4096x512 X shapeCasts_S32768x512_S8x4096x512 i)
    (Pipeline.withArrays_arr spec0 launch0.win.arr_inj c (V0 m c) (fun w => (dats m 0 c).arrAt w cfg0.N) 4)

/-- The result of the whole program on core c. -/
theorem result_eq (c : Dev nD) :
    (Pipeline.afterTail₀ cfgs (dats m) 0 (V0 m) [hostOps1] c main_v4 : S8x4096x512.Idx → EReal)
      = onTokens (m ((c : Thread nD τ).loc main_arg0)) (m ((c : Thread nD τ).loc main_arg1))
          (m ((c : Thread nD τ).loc main_arg2)) (m ((c : Thread nD τ).loc main_arg3)) := by
  rw [result_tail, rows_final]
  unfold rowsResult
  rw [tokens_entry, first_entry, second_entry, V_main_arg1]
  exact onTokens_eq _ _ _ _ _ _

variable (ρ : Dev nD → PrngReg)

/-- Every weakly fair execution of the kernel program terminates with the result at `onTokens` of the arguments and the
    arguments unchanged. -/
theorem run : θ_run defs (onTc (τ := τ) (main (F := Ideal))) ⟨m, fun _ => 0, ρ⟩ fun r => ∀ c : Dev nD,
      r.2.mem ((c.tc : Thread nD τ).loc main_v4)
        = onTokens (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.FeedForward.OfKernel
end
-- ==== Proof.ReferenceTokens.lean ====
/-
  The reference program computes the feed-forward token by token.

  Read one stage at a time, its result at (b, t, c) is the sum over the 2048 hidden units f of
  max (Σ_k (cos (0 + Σ θ) · cos x[b, t, k]) · W1[f, k], 0) · W2[c, f]: the two contractions run over the last axis of each
  operand, so the left factor of the inner one is token (b, t) and the right factors are rows f and c of the two weight
  matrices. That is `FeedForward.onTokens`; the only arithmetic used is 0 + a = a.
-/
import proofs.«159117_j65481071405665_1_alg».proof.Proof.Gen.ReferenceIdeal.Read
import proofs.«159117_j65481071405665_1_alg».proof.Proof.Token

noncomputable section

namespace Cert.FeedForward.OfReference

open Cert.ReferenceIdeal Cert.ReferenceIdeal.Read Cert.FeedForward
open Idealize.ShloMosaic Idealize.ShloMosaic.ValueIdx

/-- The reference's last stage is the token-by-token function of its four arguments. -/
theorem stage_eq (x : Seqs.Idx → EReal) (θ : Angles.Idx → EReal) (W1 : First.Idx → EReal) (W2 : Second.Idx → EReal) :
    val_main_v7 (F := Ideal) x θ W1 W2 = onTokens x θ W1 W2 := by
  funext i
  obtain ⟨b, t, c, rfl⟩ : ∃ (b : Fin 8) (t : Fin 4096) (c : Fin 512), i = ix3 b t c := ⟨i 0, i 1, i 2, eq_ix3 i⟩
  rw [val_main_v7_apply, onTokens_apply]
  unfold feature
  refine Finset.sum_congr rfl fun f _ => ?_
  have el7 : lidx_main_v7 (ix3 b t c) f = ix3 b t f :=
    funext fun a => Fin.ext (by match a with | ⟨0, _⟩ => rfl | ⟨1, _⟩ => rfl | ⟨2, _⟩ => rfl)
  have er7 : ridx_main_v7 (ix3 b t c) f = ix2 c f :=
    funext fun a => Fin.ext (by match a with | ⟨0, _⟩ => rfl | ⟨1, _⟩ => rfl)
  rw [el7, er7, val_main_v6_apply, val_main_v5_apply, val_main_call0_v0_apply, val_main_call0_cst_apply]
  unfold hidden
  simp only [Ideal.maximumf_def, Ideal.ofBits_def, Ideal.ofBits_zero_f32]
  congr 2
  refine Finset.sum_congr rfl fun k _ => ?_
  have el5 : lidx_main_v5 (ix3 b t f) k = ix3 b t k :=
    funext fun a => Fin.ext (by match a with | ⟨0, _⟩ => rfl | ⟨1, _⟩ => rfl | ⟨2, _⟩ => rfl)
  have er5 : ridx_main_v5 (ix3 b t f) k = ix2 f k :=
    funext fun a => Fin.ext (by match a with | ⟨0, _⟩ => rfl | ⟨1, _⟩ => rfl)
  rw [el5, er5, val_main_v4_apply, val_main_v3_apply, val_main_v1_apply, val_main_v0_apply, val_main_cst_apply,
    val_main_v2_apply]
  simp only [Ideal.mulf_def, Ideal.hostUnary_cos_def, Ideal.ofBits_def, Ideal.ofBits_zero_f32, zero_add]
  rfl

end Cert.FeedForward.OfReference

end
-- ==== Proof.lean ====
/-
  A two-layer feed-forward on cosine-encoded tokens against its plain reference, over the extended reals.

  For tokens x[b, t, ·] of 512 features, angles θ of length 512 and weight matrices W1 (2048 × 512), W2 (512 × 2048),
  both programs compute

      out[b, t, c] = Σ_f max (Σ_k (cos (Σ θ) · cos x[b, t, k]) · W1[f, k], 0) · W2[c, f].

  The kernel lays the 32768 tokens out as the rows of one matrix, runs 32 grid points of 1024 rows each with the angles
  and both weight matrices whole at every point, and reads the result back as 8 × 4096 × 512; its roundings to a shorter
  float format are the identity on the extended reals, and its two matrix products start from zero. The reference
  contracts the last axis of the 3-dimensional arrays directly. The two agree term by term — same sums in the same
  order — so no law of the extended reals beyond 0 + a = a is used, and the inputs' finiteness is never needed.

  The three frames are the generated ones (the reference's frame is its generated run with the result dropped); the
  idealization rewrote nothing, so `preserves` is trivial; `algebraic` sets the kernel's run (`OfKernel.run`) beside the
  reference's generated run read stage by stage (`OfReference.stage_eq`), both at `FeedForward.onTokens`.
-/
import proofs.«159117_j65481071405665_1_alg».proof.Defs
import proofs.«159117_j65481071405665_1_alg».proof.Proof.Gen.Kernel
import proofs.«159117_j65481071405665_1_alg».proof.Proof.Gen.Kernel.Skeleton
import proofs.«159117_j65481071405665_1_alg».proof.Proof.Gen.Kernel.Launch
import proofs.«159117_j65481071405665_1_alg».proof.Proof.Gen.Kernel.Points
import proofs.«159117_j65481071405665_1_alg».proof.Proof.Gen.Kernel.Frame
import proofs.«159117_j65481071405665_1_alg».proof.Proof.Gen.KernelIdeal
import proofs.«159117_j65481071405665_1_alg».proof.Proof.Gen.KernelIdeal.Skeleton
import proofs.«159117_j65481071405665_1_alg».proof.Proof.Gen.KernelIdeal.Launch
import proofs.«159117_j65481071405665_1_alg».proof.Proof.Gen.KernelIdeal.Points
import proofs.«159117_j65481071405665_1_alg».proof.Proof.Gen.KernelIdeal.Frame
import proofs.«159117_j65481071405665_1_alg».proof.Proof.Gen.ReferenceIdeal
import proofs.«159117_j65481071405665_1_alg».proof.Proof.Gen.ReferenceIdeal.Run
import proofs.«159117_j65481071405665_1_alg».proof.Proof.Gen.ReferenceIdeal.Read
import proofs.«159117_j65481071405665_1_alg».proof.Proof.Gen.Pre_finite_inputs
import proofs.«159117_j65481071405665_1_alg».proof.Proof.KernelRun
import proofs.«159117_j65481071405665_1_alg».proof.Proof.ReferenceTokens
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the four arguments both programs end at the feed-forward of those arguments, token by token. -/
theorem algebraic : Cert.algebraic_KernelIdeal_ReferenceIdeal := by
  intro m ρ m' ρ' _ hagree
  refine ⟨fun c => Cert.FeedForward.onTokens
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.FeedForward.OfKernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v7_eq _ _ _ _).trans ?_
  refine (Cert.FeedForward.OfReference.stage_eq _ _ _ _).trans ?_
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
